-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S12288x4096 : Shape := ⟨2, ![12288, 4096]⟩
abbrev S4x4096 : Shape := ⟨2, ![4, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S12288x4096 : S_.BroadcastsInDim S12288x4096 (![] : Fin 0 → Fin S12288x4096.rank)
  reducesTo_S12288x4096_S_d0_1 : S12288x4096.ReducesTo [0, 1] S_

variable [Facts]

def fn {F : FTy → Type} [FloatOps F] (main_arg0 : FVec F S4x4096x4096 .f32) (main_arg1 : FVec F S12288x4096 .f32) (main_arg2 : IVec S4x4096 32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S12288x4096 .f32 := Host.absf main_arg1
  let main_cst_0 : FVec F S_ .f32 := constant S_ .f32 0x7F800000#32
  let main_v5 : FVec F S12288x4096 .f32 := broadcastInDim S12288x4096 ![] bcast_S_S12288x4096 main_cst_0
  let main_v6 : IVec S12288x4096 1 := cmpf .olt main_v4 main_v5
  let main_c_1 : IVec S_ 1 := constantI S_ 1 1#1
  let main_v7 : IVec S_ 1 := (fun x v => Host.reduce IntOp.andi x v reducesTo_S12288x4096_S_d0_1 h_S_) main_v6 main_c_1
  let main_v8 : IVec S_ 1 := andi main_v3 main_v7
  main_v8
-- ==== Kernel.lean ====
abbrev S4x4096x4096 : Shape := ⟨3, ![4, 4096, 4096]⟩
abbrev S12288x4096 : Shape := ⟨2, ![12288, 4096]⟩
abbrev S4x4096 : Shape := ⟨2, ![4, 4096]⟩
abbrev S16384x4096 : Shape := ⟨2, ![16384, 4096]⟩
abbrev S3x16384x4096 : Shape := ⟨3, ![3, 16384, 4096]⟩
abbrev S1024x1024 : Shape := ⟨2, ![1024, 1024]⟩
abbrev S1x1024x1024 : Shape := ⟨3, ![1, 1024, 1024]⟩
abbrev S1x16384x4096 : Shape := ⟨3, ![1, 16384, 4096]⟩
abbrev S16384x32x128 : Shape := ⟨3, ![16384, 32, 128]⟩

abbrev nBuf : Space → Nat
  | .hbm => 16
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S12288x4096, .f32⟩
  | .hbm, ⟨2, _⟩ => ⟨S4x4096, .i32⟩
  | .hbm, ⟨3, _⟩ => ⟨S16384x4096, .f32⟩
  | .hbm, ⟨4, _⟩ => ⟨S16384x4096, .bf16⟩
  | .hbm, ⟨5, _⟩ => ⟨S12288x4096, .bf16⟩
  | .hbm, ⟨6, _⟩ => ⟨S3x16384x4096, .f32⟩
  | .hbm, ⟨7, _⟩ => ⟨S1x16384x4096, .f32⟩
  | .hbm, ⟨8, _⟩ => ⟨S16384x4096, .f32⟩
  | .hbm, ⟨9, _⟩ => ⟨S16384x32x128, .f32⟩
  | .hbm, ⟨10, _⟩ => ⟨S1x16384x4096, .f32⟩
  | .hbm, ⟨11, _⟩ => ⟨S16384x4096, .f32⟩
  | .hbm, ⟨12, _⟩ => ⟨S16384x32x128, .f32⟩
  | .hbm, ⟨13, _⟩ => ⟨S1x16384x4096, .f32⟩
  | .hbm, ⟨14, _⟩ => ⟨S16384x4096, .f32⟩
  | .hbm, ⟨15, _⟩ => ⟨S16384x32x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 12, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4x4096x4096_S16384x4096 : S4x4096x4096.ShapeCasts S16384x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  slices_S3x16384x4096_S1x16384x4096_0_0_0 : S3x16384x4096.Slices ![0, 0, 0] S1x16384x4096
  shapeCasts_S1x16384x4096_S16384x4096 : S1x16384x4096.ShapeCasts S16384x4096
  shapeCasts_S16384x4096_S16384x32x128 : S16384x4096.ShapeCasts S16384x32x128
  slices_S3x16384x4096_S1x16384x4096_1_0_0 : S3x16384x4096.Slices ![1, 0, 0] S1x16384x4096
  slices_S3x16384x4096_S1x16384x4096_2_0_0 : S3x16384x4096.Slices ![2, 0, 0] S1x16384x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S12288x4096.size a
  hwx0_1 : ∀ i : grid0.Coords, EltTy.bits .bf16 = 32 ∨ (Rect.block (s := S12288x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S3x16384x4096.size a
  hwx0_2 : ∀ i : grid0.Coords, EltTy.bits .f32 = 32 ∨ (Rect.block (s := S3x16384x4096) S1x1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S12288x4096 : Shape := ⟨2, ![12288, 4096]⟩
abbrev S4x4096 : Shape := ⟨2, ![4, 4096]⟩
abbrev S4x4096x12288 : Shape := ⟨3, ![4, 4096, 12288]⟩
abbrev S16384x32x128 : Shape := ⟨3, ![16384, 32, 128]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S12288x4096, .f32⟩
  | .hbm, ⟨2, _⟩ => ⟨S4x4096, .i32⟩
  | .hbm, ⟨3, _⟩ => ⟨S4x4096x12288, .f32⟩
  | .hbm, ⟨4, _⟩ => ⟨S4x4096x4096, .f32⟩
  | .hbm, ⟨5, _⟩ => ⟨S4x4096x4096, .f32⟩
  | .hbm, ⟨6, _⟩ => ⟨S4x4096x4096, .f32⟩
  | .hbm, ⟨7, _⟩ => ⟨S16384x32x128, .f32⟩
  | .hbm, ⟨8, _⟩ => ⟨S16384x32x128, .f32⟩
  | .hbm, ⟨9, _⟩ => ⟨S16384x32x128, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  slices_S4x4096x12288_S4x4096x4096_0_0_0 : S4x4096x12288.Slices ![0, 0, 0] S4x4096x4096
  slices_S4x4096x12288_S4x4096x4096_0_0_4096 : S4x4096x12288.Slices ![0, 0, 4096] S4x4096x4096
  slices_S4x4096x12288_S4x4096x4096_0_0_8192 : S4x4096x12288.Slices ![0, 0, 8192] S4x4096x4096
  shapeCasts_S4x4096x4096_S16384x32x128 : S4x4096x4096.ShapeCasts S16384x32x128
  dot_S4x4096x4096_S12288x4096_S4x4096x12288_2_1_01_0_n_n_wf : DotDims.WF S4x4096x4096 S12288x4096 S4x4096x12288 [2] [1] [0, 1] [0] [] []

variable [Facts₀]

def dot_S4x4096x4096_S12288x4096_S4x4096x12288_2_1_01_0_n_n : DotDims S4x4096x4096 S12288x4096 S4x4096x12288 where
  lhsContracting := [2]
  rhsContracting := [1]
  lhsNonContracting := [0, 1]
  rhsNonContracting := [0]
  lhsBatch := []
  rhsBatch := []
  wf := dot_S4x4096x4096_S12288x4096_S4x4096x12288_2_1_01_0_n_n_wf

class Facts : Prop extends Facts₀ where

variable [Facts]
-- ==== Proof.Pieces.lean ====
/-
  What one step of the kernel body leaves behind, as values of what it was given.
  The body keeps a 1024 × 1024 accumulator between the steps of one output tile.  Writing `step acc a b`
  for "acc plus the product of the a tile with the transposed b tile" (`k0_pay2`), `zero` for the zero
  tile (`k0_pay1`) and `lift` for a tile read as a 1 × 1024 × 1024 block (`k0_pay3`):
    first step of a tile : the accumulator ends at  step zero a b          (it is reset, then read back);
    a middle step        : the accumulator ends at  step acc a b;
    the last step        : the accumulator ends at  step acc a b  and the output block at  lift (step acc a b).
  Each is one covering store through the whole buffer, so what is left is the store's payload, and each
  load through the whole buffer reads the buffer's contents.  Nothing here depends on the float instance.
-/
import proofs.«147007_j84945863180967_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen Idealize.ShloMosaic.Tactic

variable {F : FTy → Type} [FloatOps F]

/-- The zero offsets of a rank-2 buffer. -/
theorem zero2 : (![0, 0] : Fin 2 → Nat) = fun _ => 0 := funext fun a => by fin_cases a <;> rfl
/-- The zero offsets of a rank-3 buffer. -/
theorem zero3 : (![0, 0, 0] : Fin 3 → Nat) = fun _ => 0 := funext fun a => by fin_cases a <;> rfl

/-- A middle step leaves the accumulator it found plus this step's product. -/
theorem acc_middle (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024x1024 .f32) (h5 : a5.IsWhole)
    (a6 : Memref sig .tc .vmem S1024x1024 .f32) (h6 : a6.IsWhole) (hc0 : ¬cond0_0 i) (hc1 : ¬cond0_1 i)
    (x0 x1 : Vec F S1024x1024 .bf16) (xs0 : Vec F S1024x1024 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero zero2]
  simp only [View.readAt_eq_ld, h6.read_unread, h3.read_unread, h4.read_unread, View.ld_unit_zero (S := S1024x1024) zero2]

/-- The last step leaves the same in the accumulator, -/
theorem acc_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero zero2]
  simp only [View.readAt_eq_ld, h6.read_unread, h3.read_unread, h4.read_unread, View.ld_unit_zero (S := S1024x1024) zero2]

/-- and stores that accumulator, read back, into the output block. -/
theorem out_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    out0_C_2 c i a3 h3 a4 h4 a5 h5 a6 h6 hc0 hc1 x0 x1 xs0 = k0_pay3 (k0_pay2 xs0 x0 x1) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero zero3, View.readCov_unit_zero (S := S1024x1024) _ zero2]
  simp only [View.readAt_eq_ld, h6.read_unread, h3.read_unread, h4.read_unread, View.ld_unit_zero (S := S1024x1024) zero2]

/-- The first step of a tile resets the accumulator to the zero tile, reads it back and adds this step's product. -/
theorem acc_first (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024x1024 .f32) (h5 : a5.IsWhole)
    (a6 : Memref sig .tc .vmem S1024x1024 .f32) (h6 : a6.IsWhole) (hc0 : cond0_0 i) (hc1 : ¬cond0_1 i)
    (x0 x1 : Vec F S1024x1024 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) zero2, View.readCov_unit_zero (S := S1024x1024) _ zero2]
  simp only [View.readAt_eq_ld, h3.read_unread, h4.read_unread, View.ld_unit_zero (S := S1024x1024) zero2]

end Cert.KernelIdeal.Pieces

end
-- ==== Proof.Payload.lean ====
/-
  The body's arithmetic read at one entry, on the extended reals.
  With D the contraction "row p of the left tile against row q of the right tile" (both tiles 1024 × 1024,
  contracted along their second axis), one step's payload at entry (p, q) is
    acc (p, q) + ∑ a, left (p, a) * right (q, a)      (a sum of 1024 products),
  the zero tile is 0 at every entry, and reading a tile as a 1 × 1024 × 1024 block changes no entry.
-/
import proofs.«147007_j84945863180967_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- The contraction of one step: rows of the left tile against rows of the right tile. -/
abbrev D : DotDims S1024x1024 S1024x1024 S1024x1024 := dot_S1024x1024_S1024x1024_S1024x1024_1_1_0_0_n_n

/-- The left operand is read in the output's row, -/
theorem lhs_row (j : S1024x1024.Idx) (k : D.contr.Idx) : (D.lhsIdx j k 0).val = (j 0).val := by
  unfold DotDims.lhsIdx
  rw [dif_neg (show ¬(0 : Fin S1024x1024.rank) ∈ D.lhsBatch by decide), dif_pos (show (0 : Fin S1024x1024.rank) ∈ D.lhsNonContracting by decide)]
  rfl
/-- at the contracted position; -/
theorem lhs_col (j : S1024x1024.Idx) (k : D.contr.Idx) : (D.lhsIdx j k 1).val = (k ⟨0, by decide⟩).val :=
  D.lhsIdx_val_of_single rfl j k
/-- the right operand in the row named by the output's column, -/
theorem rhs_row (j : S1024x1024.Idx) (k : D.contr.Idx) : (D.rhsIdx j k 0).val = (j 1).val := by
  unfold DotDims.rhsIdx
  rw [dif_neg (show ¬(0 : Fin S1024x1024.rank) ∈ D.rhsBatch by decide), dif_pos (show (0 : Fin S1024x1024.rank) ∈ D.rhsNonContracting by decide)]
  rfl
/-- at the contracted position. -/
theorem rhs_col (j : S1024x1024.Idx) (k : D.contr.Idx) : (D.rhsIdx j k 1).val = (k ⟨0, by decide⟩).val :=
  D.rhsIdx_val_of_single rfl j k

/-- The product of one step into the zero accumulator, at entry (p, q): the 1024 products of row p of the left
    tile with row q of the right tile, summed. -/
theorem product_apply (l r : FVec Ideal S1024x1024 .bf16) (p q : Fin 1024) :
    matmul D none l r (constant (F := Ideal) S1024x1024 .f32 0x00000000#32) (ix2 p q) = ∑ a : Fin 1024, l (ix2 p a) * r (ix2 q a) := by
  simp only [matmul]
  rw [Ideal.matmul_constant_zero_apply, ← Equiv.sum_comp (contrEquiv1 D 1024 rfl rfl).symm]
  refine Finset.sum_congr rfl fun a _ => ?_
  have ha := contrEquiv1_symm_val D 1024 rfl rfl a
  have el : D.lhsIdx (ix2 p q) ((contrEquiv1 D 1024 rfl rfl).symm a) = ix2 p a := funext fun d => Fin.ext (by
    match d with
    | ⟨0, _⟩ => exact lhs_row _ _
    | ⟨1, _⟩ => exact (lhs_col _ _).trans ha)
  have er : D.rhsIdx (ix2 p q) ((contrEquiv1 D 1024 rfl rfl).symm a) = ix2 q a := funext fun d => Fin.ext (by
    match d with
    | ⟨0, _⟩ => exact rhs_row _ _
    | ⟨1, _⟩ => exact (rhs_col _ _).trans ha)
  rw [el, er]

/-- The zero tile is zero at every entry. -/
theorem zero_apply (j : S1024x1024.Idx) : k0_pay1 (F := Ideal) j = 0 := by
  unfold k0_pay1
  simp only [shapeCast_self]
  exact Ideal.ofBits_zero_f32

/-- One step at entry (p, q): the accumulator there plus the step's 1024 products. -/
theorem step_apply (acc : Vec Ideal S1024x1024 .f32) (l r : Vec Ideal S1024x1024 .bf16) (p q : Fin 1024) :
    k0_pay2 acc l r (ix2 p q) = acc (ix2 p q) + ∑ a : Fin 1024, l (ix2 p a) * r (ix2 q a) := by
  unfold k0_pay2
  simp only [shapeCast_self]
  exact congrArg (acc (ix2 p q) + ·) (product_apply l r p q)

/-- A tile read as a 1 × 1024 × 1024 block has the same entries. -/
theorem lift_apply (v : Vec Ideal S1024x1024 .f32) (z : Fin 1) (p q : Fin 1024) :
    k0_pay3 v (ix3 z p q) = v (ix2 p q) := by
  unfold k0_pay3
  refine shapeCast_apply v _ (ix3 z p q) (ix2 p q) ?_
  rewrite [Shape.rowMajor_val_two, Shape.rowMajor_val_three]
  have hz : z.val = 0 := by have := z.isLt; omega
  show p.val * 1024 + q.val = (z.val * 1024 + p.val) * 1024 + q.val
  rw [hz]; omega

end Cert.KernelIdeal.Payload

end
-- ==== Proof.Spec.lean ====
/-
  The specification: the fused projection as one function of the argument arrays.
  With x the activations read as a 16384 × 4096 matrix (row r is batch r / 4096, position r % 4096)
  and w the 12288 × 4096 weight matrix, slot g ∈ {0, 1, 2} of the result is the 16384 × 4096 matrix
    proj g r e = ∑ k, x r k * w (g * 4096 + e) k,
  a sum of 4096 products on the extended reals, and each of the three results is that matrix with its
  4096 columns read as 32 heads of 128.  The kernel reaches the same sum in four steps of 1024 terms
  added in order to zero; addition on the extended reals is commutative and associative, so the four
  partial sums regroup into the one sum without any finiteness assumption.
-/
import Idealize.ShloMosaic.PureOps.Ideal
import Idealize.ShloMosaic.Lib.ValueIdx

noncomputable section

namespace Cert.QkvSpec

open Idealize.ShloMosaic Idealize.ShloMosaic.ValueIdx

/-! ## A sum of 4096 terms, four blocks of 1024 at a time -/

section Blocks
variable {β : Type*} [AddCommMonoid β]

/-- The sum of block `b` (taken mod 4) of a family of 4096 terms: the terms `1024 * b, …, 1024 * b + 1023`. -/
def blk (f : Fin 4096 → β) (b : ℕ) : β :=
  ∑ a : Fin 1024, f ⟨a.val + 1024 * (b % 4), by have := a.isLt; omega⟩

/-- The running sum after block `n`: zero plus block 0, then each further block added on the right. -/
def acc (f : Fin 4096 → β) : ℕ → β
  | 0 => 0 + blk f 0
  | n + 1 => acc f n + blk f (n + 1)

/-- The whole sum is the sum of its four blocks. -/
theorem sum_eq_blocks (f : Fin 4096 → β) : ∑ k, f k = blk f 0 + blk f 1 + blk f 2 + blk f 3 := by
  have e := (Equiv.sum_comp (finProdFinEquiv : Fin 4 × Fin 1024 ≃ Fin (4 * 1024)) f).symm
  rw [show (∑ k : Fin 4096, f k) = ∑ k : Fin (4 * 1024), f k from rfl, e, Fintype.sum_prod_type, Fin.sum_univ_four]
  rfl

/-- After the fourth block the running sum is the whole sum. -/
theorem acc_three (f : Fin 4096 → β) : acc f 3 = ∑ k, f k := by
  rw [sum_eq_blocks]
  show 0 + blk f 0 + blk f 1 + blk f 2 + blk f 3 = _
  rw [zero_add]

end Blocks

/-! ## The projection -/

abbrev SX : Shape := ⟨3, ![4, 4096, 4096]⟩
abbrev SW : Shape := ⟨2, ![12288, 4096]⟩
abbrev SXm : Shape := ⟨2, ![16384, 4096]⟩
abbrev SOut : Shape := ⟨3, ![3, 16384, 4096]⟩
abbrev SHeads : Shape := ⟨3, ![16384, 32, 128]⟩

/-- Entry (r, k) of the activations read as a 16384 × 4096 matrix: batch `r / 4096`, position `r % 4096`. -/
abbrev xIdx (r : Fin 16384) (k : Fin 4096) : SX.Idx :=
  ix3 (⟨r.val / 4096, by have := r.isLt; omega⟩ : Fin 4) (⟨r.val % 4096, by omega⟩ : Fin 4096) k

/-- The terms of one entry of a product of a 16384 × 4096 matrix with the transpose of a 12288 × 4096 one. -/
def terms (X : SXm.Idx → EReal) (W : SW.Idx → EReal) (R : Fin 16384) (C : Fin 12288) : Fin 4096 → EReal :=
  fun k => X (ix2 R k) * W (ix2 C k)

/-- Row `g * 4096 + e` of the weights: output column `e` of slot `g`. -/
abbrev wRow (g : Fin 3) (e : Fin 4096) : Fin 12288 := ⟨g.val * 4096 + e.val, by have := g.isLt; have := e.isLt; omega⟩

/-- Slot `g` of the projection, entry (r, e): the sum over k of x r k * w (g * 4096 + e) k. -/
def proj (x : SX.Idx → EReal) (w : SW.Idx → EReal) (g : Fin 3) (r : Fin 16384) (e : Fin 4096) : EReal :=
  ∑ k : Fin 4096, x (xIdx r k) * w (ix2 (wRow g e) k)

/-- The three slots as one array of shape 3 × 16384 × 4096. -/
def out3 (x : SX.Idx → EReal) (w : SW.Idx → EReal) : SOut.Idx → EReal :=
  fun i => proj x w (i 0) (i 1) (i 2)

/-- Result `g`: slot `g` with its columns read as 32 heads of 128 (column `h * 128 + d` is head h, lane d). -/
def heads (x : SX.Idx → EReal) (w : SW.Idx → EReal) (g : Fin 3) : SHeads.Idx → EReal :=
  fun i => proj x w g (i 0)
    ⟨(i 1).val * 128 + (i 2).val, by have h1 : (i 1).val < 32 := (i 1).isLt; have h2 : (i 2).val < 128 := (i 2).isLt; omega⟩

end Cert.QkvSpec

end
-- ==== Proof.Blocks.lean ====
/-
  Where the body's tiles sit in the operand arrays.
  Grid point t of the 16 × 12 × 4 grid is (i, j, kb) = (t / 48, t / 4 % 12, t % 4): output-row tile i,
  weight-row tile j, contraction block kb.  At that point
    the left tile's entry (p, a) is entry (1024 i + p, 1024 kb + a) of the activation matrix,
    the right tile's entry (q, a) is entry (1024 j + q, 1024 kb + a) of the weight matrix,
  and the output block written back after the last contraction block is block (j / 4, i, j % 4) of the
  3 × 16384 × 4096 result.  The activation matrix the kernel is handed is the activations reshaped from
  4 × 4096 × 4096 (row r is batch r / 4096, position r % 4096); the change of float format before the call
  is the identity on the extended reals.
-/
import proofs.«147007_j84945863180967_2_alg».proof.Proof.Gen.KernelIdeal.Frame
import proofs.«147007_j84945863180967_2_alg».proof.Proof.Spec
import Idealize.ShloMosaic.Lib.ValueIdx
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.QkvSpec

variable (m : (ℓ : Loc nD τ sig) → Buf (Elt Ideal) ℓ)

/-! ## The index maps over the grid -/

/-- The left window's block index at point t is (t / 48, t % 4). -/
theorem index_left : ∀ t : Fin cfg0.N, win0_0.index t 0 = t.val / 48 ∧ win0_0.index t 1 = t.val % 4 :=
  (by decide +kernel : ∀ t : Fin grid0.N, win0_0.index t 0 = t.val / 48 ∧ win0_0.index t 1 = t.val % 4)

/-- The right window's block index at point t is (t / 4 % 12, t % 4). -/
theorem index_right : ∀ t : Fin cfg0.N, win0_1.index t 0 = t.val / 4 % 12 ∧ win0_1.index t 1 = t.val % 4 :=
  (by decide +kernel : ∀ t : Fin grid0.N, win0_1.index t 0 = t.val / 4 % 12 ∧ win0_1.index t 1 = t.val % 4)

/-- The output window's block index at point t is (j / 4, i, j % 4) with i = t / 48 and j = t / 4 % 12. -/
theorem index_out : ∀ t : Fin cfg0.N, win0_2.index t 0 = t.val / 4 % 12 / 4 ∧ win0_2.index t 1 = t.val / 48 ∧ win0_2.index t 2 = t.val / 4 % 12 % 4 :=
  (by decide +kernel : ∀ t : Fin grid0.N, win0_2.index t 0 = t.val / 4 % 12 / 4 ∧ win0_2.index t 1 = t.val / 48 ∧ win0_2.index t 2 = t.val / 4 % 12 % 4)

/-! ## The operand arrays as the region finds them -/

/-- The left operand array is the activations reshaped to a matrix (then a change of format). -/
theorem left_array (c : Dev nD) : V m c main_v1
    = (truncf (F := Ideal) .bf16 (shapeCast S16384x4096 (m ((c : Thread nD τ).loc main_arg0)) shapeCasts_S4x4096x4096_S16384x4096) bitsLt_bf16_f32 : FVec Ideal S16384x4096 .bf16) := by
  show StableHlo.after hostOps0 (fun b => m (c, b)) (Proc.devRef .tc main_v1) = _
  after_results <;> rfl

/-- The right operand array is the weights (after a change of format). -/
theorem right_array (c : Dev nD) : V m c main_v2
    = (truncf (F := Ideal) .bf16 (m ((c : Thread nD τ).loc main_arg1)) bitsLt_bf16_f32 : FVec Ideal S12288x4096 .bf16) := by
  show StableHlo.after hostOps0 (fun b => m (c, b)) (Proc.devRef .tc main_v2) = _
  after_results <;> rfl

/-- Entry (r, k) of the left operand array is the activations at batch r / 4096, position r % 4096, feature k. -/
theorem left_array_apply (c : Dev nD) (r : Fin 16384) (k : Fin 4096) :
    (V m c main_v1 : S16384x4096.Idx → EReal) (ix2 r k) = m ((c : Thread nD τ).loc main_arg0) (xIdx r k) := by
  rw [left_array]
  show shapeCast S16384x4096 (m ((c : Thread nD τ).loc main_arg0)) shapeCasts_S4x4096x4096_S16384x4096 (ix2 r k) = _
  refine shapeCast_apply _ _ (ix2 r k) (xIdx r k) ?_
  rewrite [Shape.rowMajor_val_two, Shape.rowMajor_val_three]
  have := r.isLt
  show (r.val / 4096 * 4096 + r.val % 4096) * 4096 + k.val = r.val * 4096 + k.val
  omega

/-- Entry (f, k) of the right operand array is the weights there. -/
theorem right_array_apply (c : Dev nD) (j : S12288x4096.Idx) :
    (V m c main_v2 : S12288x4096.Idx → EReal) j = m ((c : Thread nD τ).loc main_arg1) j := by
  rw [right_array]; rfl

/-! ## The tiles -/

/-- The left tile at point t: entry (p, a) is entry (1024 (t / 48) + p, 1024 (t % 4) + a) of the left operand array. -/
theorem left_tile (c : Dev nD) (t : Fin cfg0.N) (p a : Fin 1024) (R : Fin 16384) (K : Fin 4096)
    (hR : R.val = t.val / 48 * 1024 + p.val) (hK : K.val = t.val % 4 * 1024 + a.val) :
    (iblk m c 0 t : Vec Ideal S1024x1024 .bf16) (ix2 p a) = (V m c main_v1 : S16384x4096.Idx → EReal) (ix2 R K) := by
  have hi := index_left t
  unfold iblk
  rw [View.read_apply]
  show (V m c main_v1 : S16384x4096.Idx → EReal) _ = (V m c main_v1 : S16384x4096.Idx → EReal) _
  congr 1
  funext d
  apply Fin.ext
  match d with
  | ⟨0, _⟩ => show win0_0.index t 0 * 1024 + 1 * p.val = R.val; rw [hi.1]; omega
  | ⟨1, _⟩ => show win0_0.index t 1 * 1024 + 1 * a.val = K.val; rw [hi.2]; omega

/-- The right tile at point t: entry (q, a) is entry (1024 (t / 4 % 12) + q, 1024 (t % 4) + a) of the right operand array. -/
theorem right_tile (c : Dev nD) (t : Fin cfg0.N) (q a : Fin 1024) (C : Fin 12288) (K : Fin 4096)
    (hC : C.val = t.val / 4 % 12 * 1024 + q.val) (hK : K.val = t.val % 4 * 1024 + a.val) :
    (iblk m c 1 t : Vec Ideal S1024x1024 .bf16) (ix2 q a) = (V m c main_v2 : S12288x4096.Idx → EReal) (ix2 C K) := by
  have hi := index_right t
  unfold iblk
  rw [View.read_apply]
  show (V m c main_v2 : S12288x4096.Idx → EReal) _ = (V m c main_v2 : S12288x4096.Idx → EReal) _
  congr 1
  funext d
  apply Fin.ext
  match d with
  | ⟨0, _⟩ => show win0_1.index t 0 * 1024 + 1 * q.val = C.val; rw [hi.1]; omega
  | ⟨1, _⟩ => show win0_1.index t 1 * 1024 + 1 * a.val = K.val; rw [hi.2]; omega

end Cert.KernelIdeal.Blocks

end
-- ==== Proof.Accumulate.lean ====
/-
  The accumulator after every grid point.
  Fix entry (p, q) of the tile at grid point n = (i, j, kb) (i = n / 48, j = n / 4 % 12, kb = n % 4); it is
  entry (R, C) = (1024 i + p, 1024 j + q) of the product of the left operand array X with the transposed right
  operand array W.  After point n the accumulator holds, at (p, q), the running sum of the first kb + 1 blocks of
  the 4096 terms X (R, k) * W (C, k):  0 + block 0 after the first point of a tile, and one more block after each
  further point.  By induction on n: the first point of a tile (kb = 0) resets to zero and adds block 0; any
  other point adds block kb to what the point before (same tile, block kb - 1) left.  So after the last point of
  a tile (kb = 3) the accumulator, and the output block stored from it, hold the whole sum over k.
-/
import proofs.«147007_j84945863180967_2_alg».proof.Proof.Pieces
import proofs.«147007_j84945863180967_2_alg».proof.Proof.Payload
import proofs.«147007_j84945863180967_2_alg».proof.Proof.Blocks

set_option maxRecDepth 16384

noncomputable section

open Idealize.ShloMosaic Idealize.ShloMosaic.TcCoe Idealize.SL.Sem Idealize.ShloMosaic.ValueIdx

namespace Cert.KernelIdeal.Accumulate

open Cert.KernelIdeal Cert.KernelIdeal.Gen Cert.QkvSpec

variable (m : (ℓ : Loc nD τ sig) → Buf (Elt Ideal) ℓ)

/-- The left operand array, as a matrix of extended reals. -/
abbrev X (c : Dev nD) : SXm.Idx → EReal := V m c main_v1
/-- The right operand array. -/
abbrev W (c : Dev nD) : SW.Idx → EReal := V m c main_v2

/-- The 1024 products of the tiles at point t (l the left tile, r the right one), at entry (p, q), are block t % 4 of
    the terms of entry (R, C). -/
theorem tile_products (c : Dev nD) (t : Fin cfg0.N) (p q : Fin 1024) (R : Fin 16384) (C : Fin 12288)
    (hR : R.val = t.val / 48 * 1024 + p.val) (hC : C.val = t.val / 4 % 12 * 1024 + q.val)
    (l r : Vec Ideal S1024x1024 .bf16) (hl : l = iblk m c 0 t) (hr : r = iblk m c 1 t) :
    ∑ a : Fin 1024, l (ix2 p a) * r (ix2 q a) = blk (terms (X m c) (W m c) R C) (t.val % 4) := by
  subst hl hr
  unfold blk terms
  refine Finset.sum_congr rfl fun a _ => ?_
  have ha := a.isLt
  rw [Blocks.left_tile m c t p a R ⟨a.val + 1024 * (t.val % 4 % 4), by omega⟩ hR (by show a.val + 1024 * (t.val % 4 % 4) = t.val % 4 * 1024 + a.val; omega),
    Blocks.right_tile m c t q a C ⟨a.val + 1024 * (t.val % 4 % 4), by omega⟩ hC (by show a.val + 1024 * (t.val % 4 % 4) = t.val % 4 * 1024 + a.val; omega)]

/-- THE INVARIANT: after point n the accumulator at (p, q) is the running sum of blocks 0 … n % 4 of entry (R, C). -/
theorem accumulator_eq (c : Dev nD) : ∀ (n : ℕ) (h : n < cfg0.N) (p q : Fin 1024) (R : Fin 16384) (C : Fin 12288),
    R.val = n / 48 * 1024 + p.val → C.val = n / 4 % 12 * 1024 + q.val →
    (outsAt0 m c n h).2 (ix2 p q) = acc (terms (X m c) (W m c) R C) (n % 4) := by
  intro n
  induction n with
  | zero =>
    intro h p q R C hR hC
    rw [outsAt0_A m c ⟨0, h⟩ rfl (by show ¬(0 % 4 = 3); decide)]
    dsimp only
    rw [Pieces.acc_first, Payload.step_apply, Payload.zero_apply, tile_products m c ⟨0, h⟩ p q R C hR hC _ _ rfl rfl]
    rfl
  | succ n ih =>
    intro h p q R C hR hC
    by_cases h0 : (n + 1) % 4 = 0
    · rw [outsAt0_A m c ⟨n + 1, h⟩ h0 (by dsimp only; omega)]
      dsimp only
      rw [Pieces.acc_first, Payload.step_apply, Payload.zero_apply, tile_products m c ⟨n + 1, h⟩ p q R C hR hC _ _ rfl rfl]
      show _ = acc _ ((n + 1) % 4)
      rw [h0]
      rfl
    · have hprev := ih (Nat.lt_of_succ_lt h) p q R C (by omega) (by omega)
      have hk : (n + 1) % 4 = n % 4 + 1 := by omega
      by_cases h1 : (n + 1) % 4 = 3
      · rw [outsAt0_C m c ⟨n + 1, h⟩ h0 h1]
        dsimp only
        rw [Pieces.acc_last, Payload.step_apply, tile_products m c ⟨n + 1, h⟩ p q R C hR hC _ _ rfl rfl]
        show (outsAt0 m c n _).2 (ix2 p q) + blk _ ((n + 1) % 4) = acc _ ((n + 1) % 4)
        rw [hprev, hk]
        rfl
      · rw [outsAt0_B m c ⟨n + 1, h⟩ h0 h1]
        dsimp only
        rw [Pieces.acc_middle, Payload.step_apply, tile_products m c ⟨n + 1, h⟩ p q R C hR hC _ _ rfl rfl]
        show (outsAt0 m c n _).2 (ix2 p q) + blk _ ((n + 1) % 4) = acc _ ((n + 1) % 4)
        rw [hprev, hk]
        rfl

/-- After the last point of a tile the output block holds, at (p, q), the whole sum over k of entry (R, C). -/
theorem output_eq (c : Dev nD) (t : Fin cfg0.N) (h3 : t.val % 4 = 3) (z : Fin 1) (p q : Fin 1024) (R : Fin 16384) (C : Fin 12288)
    (hR : R.val = t.val / 48 * 1024 + p.val) (hC : C.val = t.val / 4 % 12 * 1024 + q.val) :
    ((outsAt0 m c t.val t.isLt).1 : Vec Ideal S1x1024x1024 .f32) (ix3 z p q) = ∑ k : Fin 4096, terms (X m c) (W m c) R C k := by
  have h0 : ¬t.val % 4 = 0 := by omega
  have hpos : 0 < t.val := by omega
  have hprev := accumulator_eq m c (t.val - 1) (Nat.lt_of_le_of_lt (Nat.sub_le _ _) t.isLt) p q R C (by omega) (by omega)
  rw [outsAt0_C m c t h0 h3]
  dsimp only
  rw [Pieces.out_last, Payload.lift_apply, Payload.step_apply, tile_products m c t p q R C hR hC _ _ rfl rfl, hprev, ← acc_three]
  have hk : t.val % 4 = (t.val - 1) % 4 + 1 := by omega
  rw [hk, show (t.val - 1) % 4 = 2 from by omega]
  rfl

end Cert.KernelIdeal.Accumulate

end
-- ==== Proof.Final.lean ====
/-
  From the output blocks to the whole 3 × 16384 × 4096 result array.
  The output block of grid point (i, j, kb) is block (j / 4, i, j % 4) of the result, in blocks of 1 × 1024 × 1024, and
  it is written back after the last contraction block only (kb = 3), when it holds the finished sums.  Entry
  (z, p, q) of that block is entry (g, r, e) = (j / 4, 1024 i + p, 1024 (j % 4) + q) of the result, and the sum it
  holds is that of row r of the left operand against row 1024 j + q = 4096 g + e of the right operand: the same entry of
  the product, whichever block it is read through.  The 3 × 16 × 4 blocks written back tile the array (entry (g, r, e)
  lies in the block of i = r / 1024, j = 4 g + e / 1024), so after the run the array holds the product everywhere.
-/
import proofs.«147007_j84945863180967_2_alg».proof.Proof.Accumulate

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.QkvSpec Cert.KernelIdeal.Accumulate

variable (m : (ℓ : Loc nD τ sig) → Buf (Elt Ideal) ℓ)

/-- What the result array holds after the run, over the operand arrays: entry (g, r, e) is the sum over k of
    X (r, k) * W (4096 g + e, k). -/
def product (c : Dev nD) : Buf (Elt Ideal) ((c : Thread nD τ).loc main_v3) :=
  (fun i => ∑ k : Fin 4096, terms (X m c) (W m c) (i 1) (wRow (i 0) (i 2)) k : S3x16384x4096.Idx → EReal)

/-- Over the argument arrays it is the specification's three slots. -/
theorem product_eq (c : Dev nD) :
    product m c = out3 (m ((c : Thread nD τ).loc main_arg0)) (m ((c : Thread nD τ).loc main_arg1)) := by
  funext i
  show (∑ k : Fin 4096, terms (X m c) (W m c) (i 1) (wRow (i 0) (i 2)) k : EReal)
    = proj (m ((c : Thread nD τ).loc main_arg0)) (m ((c : Thread nD τ).loc main_arg1)) (i 0) (i 1) (i 2)
  unfold proj terms
  refine Finset.sum_congr rfl fun k _ => ?_
  exact congrArg₂ (fun a b : EReal => a * b) (Blocks.left_array_apply m c (i 1) k) (Blocks.right_array_apply m c (ix2 (wRow (i 0) (i 2)) k))

/-- What a point that writes back writes: its block of the product. -/
theorem flushed_eq (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  have hN : t.val < 768 := lt_of_lt_of_eq t.isLt N_0
  obtain ⟨e0, e1, e2⟩ := Blocks.index_out t
  show (cfg0.win 2).cut (grid0.coords t) ((dats m 0 c).after 2 t) = _
  rw [after0_2]
  funext y
  obtain ⟨z, p, q, rfl⟩ : ∃ (z : Fin 1) (p q : Fin 1024), y = ix3 z p q := ⟨y 0, y 1, y 2, eq_ix3 y⟩
  have hz : z.val = 0 := by have := z.isLt; omega
  have hp := p.isLt
  have hq := q.isLt
  show ((outsAt0 m c t.val t.isLt).1 : Vec Ideal S1x1024x1024 .f32) (ix3 z p q)
    = product m c (((cfg0.win 2).blk t).view.emb (ix3 z p q))
  rw [output_eq m c t h3 z p q ⟨t.val / 48 * 1024 + p.val, by omega⟩ ⟨t.val / 4 % 12 * 1024 + q.val, by omega⟩ rfl rfl]
  have eR : (⟨t.val / 48 * 1024 + p.val, by omega⟩ : Fin 16384) = ((cfg0.win 2).blk t).view.emb (ix3 z p q) 1 :=
    Fin.ext (by show t.val / 48 * 1024 + p.val = win0_2.index t 1 * 1024 + 1 * p.val; rw [e1]; omega)
  have eC : (⟨t.val / 4 % 12 * 1024 + q.val, by omega⟩ : Fin 12288)
      = wRow (((cfg0.win 2).blk t).view.emb (ix3 z p q) 0) (((cfg0.win 2).blk t).view.emb (ix3 z p q) 2) :=
    Fin.ext (by
      show t.val / 4 % 12 * 1024 + q.val = (win0_2.index t 0 * 1 + 1 * z.val) * 4096 + (win0_2.index t 2 * 1024 + 1 * q.val)
      rw [e0, e2, hz]; omega)
  exact congrArg₂ (fun R C => ∑ k : Fin 4096, terms (X m c) (W m c) R C k) eR eC

/-- An entry of the array is in point t's block iff each coordinate is in the block's range on its axis. -/
theorem mem_blk (t : Fin cfg0.N) (i : S3x16384x4096.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v3).slice (win0_2.rect t)).set ↔ _
  rw [View.set_slice_whole, Rect.mem_set_unit]
  exact Iff.rfl

/-- Every entry of the result is in the block of some point that writes back. -/
theorem cover (i : S3x16384x4096.Idx) :
    ∃ t : Fin cfg0.N, (cfg0.win 2).flush t = true ∧ i ∈ ((cfg0.win 2).blk t).view.set := by
  have h0 : (i 0).val < 3 := (i 0).isLt
  have h1 : (i 1).val < 16384 := (i 1).isLt
  have h2 : (i 2).val < 4096 := (i 2).isLt
  obtain ⟨n, hn⟩ : ∃ n : ℕ, n = ((i 1).val / 1024 * 12 + ((i 0).val * 4 + (i 2).val / 1024)) * 4 + 3 := ⟨_, rfl⟩
  have hlt : n < cfg0.N := by rw [show cfg0.N = 768 from N_0]; omega
  have e0 : win0_2.index ⟨n, hlt⟩ 0 = n / 4 % 12 / 4 := (Blocks.index_out ⟨n, hlt⟩).1
  have e1 : win0_2.index ⟨n, hlt⟩ 1 = n / 48 := (Blocks.index_out ⟨n, hlt⟩).2.1
  have e2 : win0_2.index ⟨n, hlt⟩ 2 = n / 4 % 12 % 4 := (Blocks.index_out ⟨n, hlt⟩).2.2
  refine ⟨⟨n, hlt⟩, (flush0_2 _).mpr (by show n % 4 = 3; omega), ?_⟩
  rw [mem_blk]
  intro a
  match a with
  | ⟨0, _⟩ =>
    show win0_2.index ⟨n, hlt⟩ 0 * 1 ≤ (i 0).val ∧ (i 0).val < win0_2.index ⟨n, hlt⟩ 0 * 1 + 1
    rw [e0]; omega
  | ⟨1, _⟩ =>
    show win0_2.index ⟨n, hlt⟩ 1 * 1024 ≤ (i 1).val ∧ (i 1).val < win0_2.index ⟨n, hlt⟩ 1 * 1024 + 1024
    rw [e1]; omega
  | ⟨2, _⟩ =>
    show win0_2.index ⟨n, hlt⟩ 2 * 1024 ≤ (i 2).val ∧ (i 2).val < win0_2.index ⟨n, hlt⟩ 2 * 1024 + 1024
    rw [e2]; omega

/-- So the result array ends holding the product. -/
theorem final (c : Dev nD) : (dats m 0 c).arrAt 2 cfg0.N = product m c :=
  (dats m 0 c).arrAt_eq_of_cover 2 (product m c) (flushed_eq m c) cover

end Cert.KernelIdeal.Final

end
-- ==== Proof.Results.lean ====
/-
  The three results, after the host operations that follow the region.
  Result g is the result array's slot g — the slice [g : g + 1, 0 : 16384, 0 : 4096] — with its unit axis dropped and its
  4096 columns then read as 32 × 128.  Both reshapes keep the row-major position, so entry (r, h, d) of result g is entry
  (g, r, 128 h + d) of the array: slot g's heads.  With the array after the run known to be the product (module Final) this
  names all three results of the kernel's run; its arguments end as they began.
-/
import proofs.«147007_j84945863180967_2_alg».proof.Proof.Final
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Results

open Cert.KernelIdeal Cert.KernelIdeal.Gen Cert.QkvSpec Cert.KernelIdeal.Final

variable (m : (ℓ : Loc nD τ sig) → Buf (Elt Ideal) ℓ) (ρ : Dev nD → PrngReg)

/-- Slot g of a 3 × 16384 × 4096 array, sliced out, flattened to 16384 × 4096 and read as 16384 × 32 × 128: entry
    (r, h, d) is entry (g, r, e) of the array, e = 128 h + d. -/
theorem slot_heads (A : S3x16384x4096.Idx → EReal) (g : Fin 3) (off : Fin 3 → ℕ) (hoff : off = ![g.val, 0, 0])
    (hs : S3x16384x4096.Slices off S1x16384x4096) (i : S16384x32x128.Idx) (e : Fin 4096)
    (he : e.val = (i 1).val * 128 + (i 2).val) :
    shapeCast S16384x32x128 (shapeCast S16384x4096 (extractStridedSlice S1x16384x4096 off A hs)
      shapeCasts_S1x16384x4096_S16384x4096) shapeCasts_S16384x4096_S16384x32x128 i = A (ix3 g (i 0) e) := by
  subst hoff
  have h0 : (i 0).val < 16384 := (i 0).isLt
  have h1 : (i 1).val < 32 := (i 1).isLt
  have h2 : (i 2).val < 128 := (i 2).isLt
  refine (shapeCast_apply _ _ i (ix2 (i 0) e) ?_).trans
    ((shapeCast_apply _ _ (ix2 (i 0) e) (ix3 (0 : Fin 1) (i 0) e) ?_).trans
      (extractStridedSlice_apply _ _ _ (ix3 (0 : Fin 1) (i 0) e) (ix3 g (i 0) e) ?_))
  · rewrite [Shape.rowMajor_val_two, Shape.rowMajor_val_three]
    show (i 0).val * 4096 + e.val = ((i 0).val * 32 + (i 1).val) * 128 + (i 2).val
    omega
  · rewrite [Shape.rowMajor_val_three, Shape.rowMajor_val_two]
    show (0 * 16384 + (i 0).val) * 4096 + e.val = (i 0).val * 4096 + e.val
    omega
  · intro a
    match a with
    | ⟨0, _⟩ => show g.val = g.val + 0; omega
    | ⟨1, _⟩ => show (i 0).val = 0 + (i 0).val; omega
    | ⟨2, _⟩ => show e.val = 0 + e.val; omega

/-- The first result is slot 0's heads. -/
theorem query_eq (c : Dev nD) : Pipeline.afterTail₀ cfgs (dats m) 0 (V0 m) [hostOps1] c main_v6
    = heads (m ((c : Thread nD τ).loc main_arg0)) (m ((c : Thread nD τ).loc main_arg1)) 0 := by
  unfold Pipeline.afterTail₀
  show StableHlo.after hostOps1 _ (Proc.devRef .tc main_v6) = _
  after_results
  funext i
  have h1 : (i 1).val < 32 := (i 1).isLt
  have h2 : (i 2).val < 128 := (i 2).isLt
  refine (slot_heads _ 0 ![0, 0, 0] rfl _ i ⟨(i 1).val * 128 + (i 2).val, by omega⟩ rfl).trans ?_
  refine (congrFun ((Pipeline.withArrays_arr spec0 launch0.win.arr_inj c _ _ 2).trans
    ((final m c).trans (product_eq m c))) _).trans ?_
  rfl

/-- The second result is slot 1's heads. -/
theorem key_eq (c : Dev nD) : Pipeline.afterTail₀ cfgs (dats m) 0 (V0 m) [hostOps1] c main_v9
    = heads (m ((c : Thread nD τ).loc main_arg0)) (m ((c : Thread nD τ).loc main_arg1)) 1 := by
  unfold Pipeline.afterTail₀
  show StableHlo.after hostOps1 _ (Proc.devRef .tc main_v9) = _
  after_results
  funext i
  have h1 : (i 1).val < 32 := (i 1).isLt
  have h2 : (i 2).val < 128 := (i 2).isLt
  refine (slot_heads _ 1 ![1, 0, 0] rfl _ i ⟨(i 1).val * 128 + (i 2).val, by omega⟩ rfl).trans ?_
  refine (congrFun ((Pipeline.withArrays_arr spec0 launch0.win.arr_inj c _ _ 2).trans
    ((final m c).trans (product_eq m c))) _).trans ?_
  rfl

/-- The third result is slot 2's heads. -/
theorem value_eq (c : Dev nD) : Pipeline.afterTail₀ cfgs (dats m) 0 (V0 m) [hostOps1] c main_v12
    = heads (m ((c : Thread nD τ).loc main_arg0)) (m ((c : Thread nD τ).loc main_arg1)) 2 := by
  unfold Pipeline.afterTail₀
  show StableHlo.after hostOps1 _ (Proc.devRef .tc main_v12) = _
  after_results
  funext i
  have h1 : (i 1).val < 32 := (i 1).isLt
  have h2 : (i 2).val < 128 := (i 2).isLt
  refine (slot_heads _ 2 ![2, 0, 0] rfl _ i ⟨(i 1).val * 128 + (i 2).val, by omega⟩ rfl).trans ?_
  refine (congrFun ((Pipeline.withArrays_arr spec0 launch0.win.arr_inj c _ _ 2).trans
    ((final m c).trans (product_eq m c))) _).trans ?_
  rfl

/-- THE KERNEL'S RUN, READ: every weakly fair execution terminates with the three results at the three slots' heads of
    the argument arrays, and the arguments unchanged. -/
theorem run : θ_run defs (onTc (τ := τ) (main (F := Ideal))) ⟨m, fun _ => 0, ρ⟩ fun r => ∀ c : Dev nD,
      r.2.mem ((c.tc : Thread nD τ).loc main_v6) = heads (m ((c : Thread nD τ).loc main_arg0)) (m ((c : Thread nD τ).loc main_arg1)) 0
      ∧ r.2.mem ((c.tc : Thread nD τ).loc main_v9) = heads (m ((c : Thread nD τ).loc main_arg0)) (m ((c : Thread nD τ).loc main_arg1)) 1
      ∧ r.2.mem ((c.tc : Thread nD τ).loc main_v12) = heads (m ((c : Thread nD τ).loc main_arg0)) (m ((c : Thread nD τ).loc main_arg1)) 2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (query_eq m c),
      ((h c).2 main_v9 (Pipeline.mem_restRefs_of main_v9 (by decide) (by decide))).trans (key_eq m c),
      ((h c).2 main_v12 (Pipeline.mem_restRefs_of main_v12 (by decide) (by decide))).trans (value_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Results

end
-- ==== Proof.RefSide.lean ====
/-
  The reference computes the specification.
  The reference contracts the activations (4 × 4096 × 4096) with the weights (12288 × 4096) over the feature axis,
  cuts the 12288 output columns into three runs of 4096 and reads each run, flattened over batch and position, as
  16384 × 32 × 128.  Entry (r, h, d) of result g sits at flat position (r * 32 + h) * 128 + d = r * 4096 + (h * 128 + d)
  of its run: batch r / 4096, position r % 4096, column h * 128 + d of the run, that is column g * 4096 + h * 128 + d of
  the product.  So it is the sum over k of x (r / 4096, r % 4096, k) * w (g * 4096 + h * 128 + d, k): slot g's heads.
-/
import proofs.«147007_j84945863180967_2_alg».proof.Proof.Gen.ReferenceIdeal.Read
import proofs.«147007_j84945863180967_2_alg».proof.Proof.Spec

noncomputable section

open Idealize.ShloMosaic Idealize.ShloMosaic.ValueIdx

namespace Cert.ReferenceIdeal.RefValue

open Cert.ReferenceIdeal Cert.ReferenceIdeal.Read Cert.QkvSpec

/-- query_eq: the reshape, the slice of columns 0 … 4095 and the contraction, read at an index, are slot 0. -/
theorem query_eq (x0 : (⟨S4x4096x4096, .f32⟩ : BufTy).Contents (Elt Ideal)) (x1 : (⟨S12288x4096, .f32⟩ : BufTy).Contents (Elt Ideal)) :
    val_main_v4 (F := Ideal) x0 x1 = heads x0 x1 0 := by
  funext i
  have h0 : (i 0).val < 16384 := (i 0).isLt
  have h1 : (i 1).val < 32 := (i 1).isLt
  have h2 : (i 2).val < 128 := (i 2).isLt
  rw [val_main_v4_apply, val_main_v1_apply, val_main_v0_apply]
  unfold heads proj
  refine Finset.sum_congr rfl fun k _ => ?_
  have el : lidx_main_v0 (idx_main_v1 (idx_main_v4 i)) k = xIdx (i 0) k := funext fun a => Fin.ext (by
    match a with
    | ⟨0, _⟩ => show (((i 0).val * 32 + (i 1).val) * 128 + (i 2).val) / 16777216 = (i 0).val / 4096; omega
    | ⟨1, _⟩ => show (((i 0).val * 32 + (i 1).val) * 128 + (i 2).val) / 4096 % 4096 = (i 0).val % 4096; omega
    | ⟨2, _⟩ => rfl)
  have er : ridx_main_v0 (idx_main_v1 (idx_main_v4 i)) k
      = ix2 (wRow 0 ⟨(i 1).val * 128 + (i 2).val, by omega⟩) k := funext fun a => Fin.ext (by
    match a with
    | ⟨0, _⟩ => show (((i 0).val * 32 + (i 1).val) * 128 + (i 2).val) % 4096 = 0 * 4096 + ((i 1).val * 128 + (i 2).val); omega
    | ⟨1, _⟩ => rfl)
  rw [el, er]

/-- key_eq: the reshape, the slice of columns 4096 … 8191 and the contraction, read at an index, are slot 1. -/
theorem key_eq (x0 : (⟨S4x4096x4096, .f32⟩ : BufTy).Contents (Elt Ideal)) (x1 : (⟨S12288x4096, .f32⟩ : BufTy).Contents (Elt Ideal)) :
    val_main_v5 (F := Ideal) x0 x1 = heads x0 x1 1 := by
  funext i
  have h0 : (i 0).val < 16384 := (i 0).isLt
  have h1 : (i 1).val < 32 := (i 1).isLt
  have h2 : (i 2).val < 128 := (i 2).isLt
  rw [val_main_v5_apply, val_main_v2_apply, val_main_v0_apply]
  unfold heads proj
  refine Finset.sum_congr rfl fun k _ => ?_
  have el : lidx_main_v0 (idx_main_v2 (idx_main_v5 i)) k = xIdx (i 0) k := funext fun a => Fin.ext (by
    match a with
    | ⟨0, _⟩ => show (((i 0).val * 32 + (i 1).val) * 128 + (i 2).val) / 16777216 = (i 0).val / 4096; omega
    | ⟨1, _⟩ => show (((i 0).val * 32 + (i 1).val) * 128 + (i 2).val) / 4096 % 4096 = (i 0).val % 4096; omega
    | ⟨2, _⟩ => rfl)
  have er : ridx_main_v0 (idx_main_v2 (idx_main_v5 i)) k
      = ix2 (wRow 1 ⟨(i 1).val * 128 + (i 2).val, by omega⟩) k := funext fun a => Fin.ext (by
    match a with
    | ⟨0, _⟩ => show 4096 + (((i 0).val * 32 + (i 1).val) * 128 + (i 2).val) % 4096 = 1 * 4096 + ((i 1).val * 128 + (i 2).val); omega
    | ⟨1, _⟩ => rfl)
  rw [el, er]

/-- value_eq: the reshape, the slice of columns 8192 … 12287 and the contraction, read at an index, are slot 2. -/
theorem value_eq (x0 : (⟨S4x4096x4096, .f32⟩ : BufTy).Contents (Elt Ideal)) (x1 : (⟨S12288x4096, .f32⟩ : BufTy).Contents (Elt Ideal)) :
    val_main_v6 (F := Ideal) x0 x1 = heads x0 x1 2 := by
  funext i
  have h0 : (i 0).val < 16384 := (i 0).isLt
  have h1 : (i 1).val < 32 := (i 1).isLt
  have h2 : (i 2).val < 128 := (i 2).isLt
  rw [val_main_v6_apply, val_main_v3_apply, val_main_v0_apply]
  unfold heads proj
  refine Finset.sum_congr rfl fun k _ => ?_
  have el : lidx_main_v0 (idx_main_v3 (idx_main_v6 i)) k = xIdx (i 0) k := funext fun a => Fin.ext (by
    match a with
    | ⟨0, _⟩ => show (((i 0).val * 32 + (i 1).val) * 128 + (i 2).val) / 16777216 = (i 0).val / 4096; omega
    | ⟨1, _⟩ => show (((i 0).val * 32 + (i 1).val) * 128 + (i 2).val) / 4096 % 4096 = (i 0).val % 4096; omega
    | ⟨2, _⟩ => rfl)
  have er : ridx_main_v0 (idx_main_v3 (idx_main_v6 i)) k
      = ix2 (wRow 2 ⟨(i 1).val * 128 + (i 2).val, by omega⟩) k := funext fun a => Fin.ext (by
    match a with
    | ⟨0, _⟩ => show 8192 + (((i 0).val * 32 + (i 1).val) * 128 + (i 2).val) % 4096 = 2 * 4096 + ((i 1).val * 128 + (i 2).val); omega
    | ⟨1, _⟩ => rfl)
  rw [el, er]

end Cert.ReferenceIdeal.RefValue

end
-- ==== Proof.lean ====
/-
  The fused query / key / value projection against its reference, on the extended reals.
  Both programs compute, for slot g ∈ {0, 1, 2}, row r < 16384 and column e < 4096,
      ∑ k < 4096,  x (r / 4096, r % 4096, k) * w (4096 g + e, k),
  and return each slot with its columns read as 32 heads of 128.  The reference does it with one contraction over the
  feature axis, three column slices and a reshape.  The kernel flattens the activations to a 16384 × 4096 matrix, changes
  both operands' float format (the identity on the extended reals), and walks a 16 × 12 × 4 grid of 1024-tiles: for each
  output tile it resets an accumulator, adds the products of four contraction blocks of 1024 in order, and stores the tile
  into a 3 × 16384 × 4096 result after the fourth; the host then slices the three slots and reshapes them.  The two agree
  because a sum of 4096 terms is its four blocks of 1024 added in order to zero: addition on the extended reals is
  commutative and associative, infinite terms included, so no finiteness of the inputs is used.

    Spec        the projection as one function of the arguments; the block law for a sum of 4096 terms
    Pieces      what one step of the body leaves in the accumulator and the output block, as the body's payloads
    Payload     those payloads at one entry: accumulator + 1024 products
    Blocks      where a grid point's tiles sit in the operand arrays; the operand arrays over the arguments
    Accumulate  the accumulator after every grid point, by induction on the point
    Final       the result array after the run: the product, through the blocks written back
    Results     the three host results after the region; the kernel's run with every result named
    RefSide     the reference's three results are the same function
  The ideal pass rewrote nothing in this kernel, so the idealization conjunct is trivial.
-/
import proofs.«147007_j84945863180967_2_alg».proof.Defs
import proofs.«147007_j84945863180967_2_alg».proof.Proof.Gen.Kernel
import proofs.«147007_j84945863180967_2_alg».proof.Proof.Gen.Kernel.Frame
import proofs.«147007_j84945863180967_2_alg».proof.Proof.Gen.KernelIdeal
import proofs.«147007_j84945863180967_2_alg».proof.Proof.Gen.KernelIdeal.Frame
import proofs.«147007_j84945863180967_2_alg».proof.Proof.Gen.ReferenceIdeal
import proofs.«147007_j84945863180967_2_alg».proof.Proof.Gen.ReferenceIdeal.Run
import proofs.«147007_j84945863180967_2_alg».proof.Proof.Gen.ReferenceIdeal.Read
import proofs.«147007_j84945863180967_2_alg».proof.Proof.Gen.Pre_finite_inputs
import proofs.«147007_j84945863180967_2_alg».proof.Proof.Results
import proofs.«147007_j84945863180967_2_alg».proof.Proof.RefSide
import Idealize.ShloMosaic.Adequacy
import Idealize.ShloMosaic.Init

noncomputable section

namespace Cert.Proof

open Idealize.ShloMosaic Idealize.ShloMosaic.TcCoe Idealize.SL.Sem Cert.QkvSpec

/-- The kernel as printed runs, faults nowhere and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- On the extended reals, from memories that agree on the arguments, both programs end with the three slots of the
    projection, read as heads. -/
theorem algebraic : Cert.algebraic_KernelIdeal_ReferenceIdeal := by
  intro m ρ m' ρ' _ hagree
  refine ⟨fun c => heads (m ((c.tc : Thread _ Cert.KernelIdeal.τ).loc Cert.KernelIdeal.main_arg0)) (m ((c.tc : Thread _ Cert.KernelIdeal.τ).loc Cert.KernelIdeal.main_arg1)) 0,
    fun c => heads (m ((c.tc : Thread _ Cert.KernelIdeal.τ).loc Cert.KernelIdeal.main_arg0)) (m ((c.tc : Thread _ Cert.KernelIdeal.τ).loc Cert.KernelIdeal.main_arg1)) 1,
    fun c => heads (m ((c.tc : Thread _ Cert.KernelIdeal.τ).loc Cert.KernelIdeal.main_arg0)) (m ((c.tc : Thread _ Cert.KernelIdeal.τ).loc Cert.KernelIdeal.main_arg1)) 2,
    Cert.KernelIdeal.Results.run m ρ, ?_⟩
  refine (θ_run Cert.ReferenceIdeal.defs _ _).mono (fun _ h c => ⟨?_, ?_, ?_, (h c).2.2.2⟩)
    (Cert.ReferenceIdeal.Value.run (F := Ideal) m' ρ')
  · dsimp only
    rw [← (hagree c).1, ← (hagree c).2.1]
    exact (h c).1.trans (Cert.ReferenceIdeal.RefValue.query_eq _ _)
  · dsimp only
    rw [← (hagree c).1, ← (hagree c).2.1]
    exact (h c).2.1.trans (Cert.ReferenceIdeal.RefValue.key_eq _ _)
  · dsimp only
    rw [← (hagree c).1, ← (hagree c).2.1]
    exact (h c).2.2.1.trans (Cert.ReferenceIdeal.RefValue.value_eq _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
